-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S4x128 : Shape := ⟨2, ![4, 128]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg8 : FVec F S4x128 .f32) (main_arg9 : FVec F S4 .f32) (main_v33 : IVec S_ 1) : IVec S_ 1 :=
  let main_v34 : FVec F S4x128 .f32 := Host.absf main_arg8
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4 .f32 := Host.absf main_arg9
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S4x128 .f32) (main_arg9 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S4x128 .f32) (main_arg9 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S4x128 : Shape := ⟨2, ![4, 128]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S1x4 : Shape := ⟨2, ![1, 4]⟩
abbrev S100000x4 : Shape := ⟨2, ![100000, 4]⟩
abbrev S5000x4 : Shape := ⟨2, ![5000, 4]⟩
abbrev S128x4 : Shape := ⟨2, ![128, 4]⟩

abbrev nBuf : Space → Nat
  | .hbm => 64
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S4x128, .f32⟩
  | .hbm, ⟨9, _⟩ => ⟨S4, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S1x4, .f32⟩
  | .hbm, ⟨63, _⟩ => ⟨S100000x4, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S4x128, .f32⟩
  | .local _ .vmem, ⟨21, _⟩ => ⟨S1x4, .f32⟩
  | .local _ .vmem, ⟨22, _⟩ => ⟨S5000x4, .f32⟩
  | .local _ .vmem, ⟨23, _⟩ => ⟨S5000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x4 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S4_S1x4 : S4.ShapeCasts S1x4
  inb_S4x128_S4x128_0_0 : ∀ a, (![0, 0] : Fin 2 → Nat) a + S4x128.size a ≤ S4x128.size a
  h_S4x128 : 0 < S4x128.numel
  transposes_S4x128_p1_0_S128x4 : S4x128.Transposes [1, 0] S128x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x4_S5000x4_1_0_0_1_n_n_wf : DotDims.WF S5000x128 S128x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x128.size a ≤ S4x128.size a
  hwx2_1 : ∀ i : grid2.Coords, EltTy.bits .f32 = 32 ∨ (Rect.block (s := S4x128) S4x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4.size a ≤ S1x4.size a
  hwx2_2 : ∀ i : grid2.Coords, EltTy.bits .f32 = 32 ∨ (Rect.block (s := S1x4) S1x4.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x4.size a ≤ S100000x4.size a
  hwx2_3 : ∀ i : grid2.Coords, EltTy.bits .f32 = 32 ∨ (Rect.block (s := S100000x4) S5000x4.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S4x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S5000x4.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S4x128 : Shape := ⟨2, ![4, 128]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x4 : Shape := ⟨2, ![128, 4]⟩
abbrev S100000x4 : Shape := ⟨2, ![100000, 4]⟩
abbrev S1x4 : Shape := ⟨2, ![1, 4]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S4x128, .f32⟩
  | .hbm, ⟨9, _⟩ => ⟨S4, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S128x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S128x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S128x4, .f32⟩
  | .hbm, ⟨87, _⟩ => ⟨S100000x4, .f32⟩
  | .hbm, ⟨88, _⟩ => ⟨S1x4, .f32⟩
  | .hbm, ⟨89, _⟩ => ⟨S100000x4, .f32⟩
  | .hbm, ⟨90, _⟩ => ⟨S100000x4, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S4x128_S128x4_1_0 : S4x128.Transposes [1, 0] S128x4
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x4_S100000x4_1_0_0_1_n_n_wf : DotDims.WF S100000x128 S128x4 S100000x4 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x4_S100000x4_1_0_0_1_n_n : DotDims S100000x128 S128x4 S100000x4 where
  lhsContracting := [1]
  rhsContracting := [0]
  lhsNonContracting := [0]
  rhsNonContracting := [1]
  lhsBatch := []
  rhsBatch := []
  wf := dot_S100000x128_S128x4_S100000x4_1_0_0_1_n_n_wf

class Facts : Prop extends Facts₀ where

variable [Facts]
-- ==== Proof.KernelRun.lean ====
/-
  The idealized kernel program's run, with its result named.

  The program is six segments: three stretches of host operations and three tiled regions. Every weakly fair
  execution of it terminates without a fault, and in the final state every buffer that outlives the regions holds
  the contents the segments' fold assigns it: a stretch's buffers at the values its operations compute from the
  contents before it, a region's result array at what its write-backs leave. Read at the ten argument arrays this
  is the frame claim; read ALSO at the result buffer it names the program's value, which is what is stated here.
-/
import proofs.«104540_j32066225832031_1_alg».proof.Proof.Gen.KernelIdeal.Frame
import Idealize.ShloMosaic.PureOps.Ideal

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution terminates, nothing faulting; the result buffer ends at the contents the
    segments' fold gives it, and the ten argument arrays end as launched. -/
theorem run : θ_run defs (onTc (τ := τ) (main (F := Ideal))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Net

end
-- ==== Proof.Payload.lean ====
/-
  The three kernel bodies as arithmetic, read at one entry of the block they store.

  A SAGE layer's body takes a block of 5000 rows of the aggregated means `M` and of the node features `X`, the
  two `128 × 128` weight matrices `Wl`, `Wr` and the bias row `b`, and stores
      max( (Σ_k M[r,k]·Wl[c,k] + Σ_k X[r,k]·Wr[c,k]) + b[0,c], 0 )
  at entry `(r, c)`: two products with TRANSPOSED weights (so the contraction runs over the weights' second
  axis), their sum, the bias broadcast over the rows, and a clamp at zero. The output projection's body stores
      Σ_k H[r,k]·W[c,k] + b[0,c]
  with a `4 × 128` weight. On extended reals the roundings to bf16 are the identity and a matrix unit's product
  into a zero accumulator is the plain sum, so these are exact statements about the printed payloads.
-/
import proofs.«104540_j32066225832031_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## Where a product's operands sit: output entry `(r, c)` and contraction index `k` read `(r, k)` on the
    left and `(k, c)` on the right -/

theorem d128_lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem d128_lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem d128_rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem d128_rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem d4_lhs0 (i : S5000x4.Idx) (q : dot_S5000x128_S128x4_S5000x4_1_0_0_1_n_n.contr.Idx) : (dot_S5000x128_S128x4_S5000x4_1_0_0_1_n_n.lhsIdx i q 0).val = (i 0).val := by
  unfold DotDims.lhsIdx
  rw [dif_neg (show ¬(0 : Fin S5000x128.rank) ∈ dot_S5000x128_S128x4_S5000x4_1_0_0_1_n_n.lhsBatch by decide), dif_pos (show (0 : Fin S5000x128.rank) ∈ dot_S5000x128_S128x4_S5000x4_1_0_0_1_n_n.lhsNonContracting by decide)]
  rfl
theorem d4_lhs1 (i : S5000x4.Idx) (q : dot_S5000x128_S128x4_S5000x4_1_0_0_1_n_n.contr.Idx) : (dot_S5000x128_S128x4_S5000x4_1_0_0_1_n_n.lhsIdx i q 1).val = (q ⟨0, by decide⟩).val :=
  dot_S5000x128_S128x4_S5000x4_1_0_0_1_n_n.lhsIdx_val_of_single rfl i q
theorem d4_rhs0 (i : S5000x4.Idx) (q : dot_S5000x128_S128x4_S5000x4_1_0_0_1_n_n.contr.Idx) : (dot_S5000x128_S128x4_S5000x4_1_0_0_1_n_n.rhsIdx i q 0).val = (q ⟨0, by decide⟩).val :=
  dot_S5000x128_S128x4_S5000x4_1_0_0_1_n_n.rhsIdx_val_of_single rfl i q
theorem d4_rhs1 (i : S5000x4.Idx) (q : dot_S5000x128_S128x4_S5000x4_1_0_0_1_n_n.contr.Idx) : (dot_S5000x128_S128x4_S5000x4_1_0_0_1_n_n.rhsIdx i q 1).val = (i 1).val := by
  unfold DotDims.rhsIdx
  rw [dif_neg (show ¬(1 : Fin S128x4.rank) ∈ dot_S5000x128_S128x4_S5000x4_1_0_0_1_n_n.rhsBatch by decide), dif_pos (show (1 : Fin S128x4.rank) ∈ dot_S5000x128_S128x4_S5000x4_1_0_0_1_n_n.rhsNonContracting by decide)]
  rfl

/-! ## A product with a transposed weight matrix at an entry -/

/-- A block of 5000 rows times the TRANSPOSE of a `128 × 128` weight matrix, into a zero accumulator, read at
    entry `(r, c)`: the sum over the 128 features `k` of `X[r, k] · W[c, k]`. The two roundings to bf16 on
    the way into the product are the identity on extended reals. -/
theorem rows_mul_transpose128 (X : Vec Ideal S5000x128 .f32) (W : Vec Ideal S128x128 .f32) (r : Fin 5000) (c : Fin 128) :
    matmul (F := Ideal) dot_S5000x128_S128x128_S5000x128_1_0_0_1_n_n none (truncf .bf16 X bitsLt_bf16_f32)
        (transpose S128x128 [1, 0] (truncf .bf16 W bitsLt_bf16_f32) transposes_S128x128_p1_0_S128x128) (constant S5000x128 .f32 0x00000000#32) (ix2 r c)
      = ∑ k : Fin 128, X (ix2 r k) * W (ix2 c k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r c) ((ValueIdx.contrEquiv1 dot_S5000x128_S128x128_S5000x128_1_0_0_1_n_n 128 rfl rfl).symm k) = ix2 r k := funext fun a => Fin.ext (by
    match a with
    | ⟨0, _⟩ => exact d128_lhs0 _ _
    | ⟨1, _⟩ => exact (d128_lhs1 _ _).trans hk)
  have er : dot_S5000x128_S128x128_S5000x128_1_0_0_1_n_n.rhsIdx (ix2 r c) ((ValueIdx.contrEquiv1 dot_S5000x128_S128x128_S5000x128_1_0_0_1_n_n 128 rfl rfl).symm k) = ix2 k c := funext fun a => Fin.ext (by
    match a with
    | ⟨0, _⟩ => exact (d128_rhs0 _ _).trans hk
    | ⟨1, _⟩ => exact d128_rhs1 _ _)
  rw [el, er, truncf_apply, transpose_ix2_apply, truncf_apply]

/-- A block of 5000 rows times the TRANSPOSE of a `4 × 128` weight matrix, into a zero accumulator, read at
    entry `(r, c)`: the sum over the 128 features `k` of `X[r, k] · W[c, k]`. The two roundings to bf16 on
    the way into the product are the identity on extended reals. -/
theorem rows_mul_transpose4 (X : Vec Ideal S5000x128 .f32) (W : Vec Ideal S4x128 .f32) (r : Fin 5000) (c : Fin 4) :
    matmul (F := Ideal) dot_S5000x128_S128x4_S5000x4_1_0_0_1_n_n none (truncf .bf16 X bitsLt_bf16_f32)
        (transpose S128x4 [1, 0] (truncf .bf16 W bitsLt_bf16_f32) transposes_S4x128_p1_0_S128x4) (constant S5000x4 .f32 0x00000000#32) (ix2 r c)
      = ∑ k : Fin 128, X (ix2 r k) * W (ix2 c k) := by
  simp only [matmul]
  rw [Ideal.matmul_constant_zero_apply, ← Equiv.sum_comp (ValueIdx.contrEquiv1 dot_S5000x128_S128x4_S5000x4_1_0_0_1_n_n 128 rfl rfl).symm]
  refine Finset.sum_congr rfl fun k _ => ?_
  have hk := ValueIdx.contrEquiv1_symm_val dot_S5000x128_S128x4_S5000x4_1_0_0_1_n_n 128 rfl rfl k
  have el : dot_S5000x128_S128x4_S5000x4_1_0_0_1_n_n.lhsIdx (ix2 r c) ((ValueIdx.contrEquiv1 dot_S5000x128_S128x4_S5000x4_1_0_0_1_n_n 128 rfl rfl).symm k) = ix2 r k := funext fun a => Fin.ext (by
    match a with
    | ⟨0, _⟩ => exact d4_lhs0 _ _
    | ⟨1, _⟩ => exact (d4_lhs1 _ _).trans hk)
  have er : dot_S5000x128_S128x4_S5000x4_1_0_0_1_n_n.rhsIdx (ix2 r c) ((ValueIdx.contrEquiv1 dot_S5000x128_S128x4_S5000x4_1_0_0_1_n_n 128 rfl rfl).symm k) = ix2 k c := funext fun a => Fin.ext (by
    match a with
    | ⟨0, _⟩ => exact (d4_rhs0 _ _).trans hk
    | ⟨1, _⟩ => exact d4_rhs1 _ _)
  rw [el, er, truncf_apply, transpose_ix2_apply, truncf_apply]

/-! ## The bodies -/

/-- The first layer's body at entry `(r, c)`. -/
theorem layer0_at (M X : Vec Ideal S5000x128 .f32) (Wl Wr : Vec Ideal S128x128 .f32) (b : Vec Ideal S1x128 .f32)
    (r : Fin 5000) (c : Fin 128) :
    k0_pay1 (F := Ideal) M X Wl Wr b (ix2 r c)
      = max ((∑ k : Fin 128, M (ix2 r k) * Wl (ix2 c k) + ∑ k : Fin 128, X (ix2 r k) * Wr (ix2 c k)) + b (ix2 (0 : Fin 1) c)) 0 := by
  unfold k0_pay1
  show max ((matmul (F := Ideal) dot_S5000x128_S128x128_S5000x128_1_0_0_1_n_n none (truncf .bf16 (shapeCast S5000x128 M shapeCasts_S5000x128_S5000x128) bitsLt_bf16_f32)
          (transpose S128x128 [1, 0] (truncf .bf16 Wl bitsLt_bf16_f32) transposes_S128x128_p1_0_S128x128) (constant S5000x128 .f32 0x00000000#32) (ix2 r c)
        + matmul (F := Ideal) dot_S5000x128_S128x128_S5000x128_1_0_0_1_n_n none (truncf .bf16 X bitsLt_bf16_f32)
          (transpose S128x128 [1, 0] (truncf .bf16 Wr bitsLt_bf16_f32) transposes_S128x128_p1_0_S128x128) (constant S5000x128 .f32 0x00000000#32) (ix2 r c))
      + broadcastTo S5000x128 (shapeCast S1x128 b shapeCasts_S1x128_S1x128) broadcasts_S1x128_S5000x128 (ix2 r c))
      (Ideal.ofBits .f32 0x00000000#32) = _
  rw [shapeCast_self, shapeCast_self, rows_mul_transpose128, rows_mul_transpose128, broadcastTo_1b_ab_apply, Ideal.ofBits_zero_f32]

/-- The second layer's body at entry `(r, c)`: the same arithmetic. -/
theorem layer1_at (M X : Vec Ideal S5000x128 .f32) (Wl Wr : Vec Ideal S128x128 .f32) (b : Vec Ideal S1x128 .f32)
    (r : Fin 5000) (c : Fin 128) :
    k1_pay1 (F := Ideal) M X Wl Wr b (ix2 r c)
      = max ((∑ k : Fin 128, M (ix2 r k) * Wl (ix2 c k) + ∑ k : Fin 128, X (ix2 r k) * Wr (ix2 c k)) + b (ix2 (0 : Fin 1) c)) 0 := by
  unfold k1_pay1
  show max ((matmul (F := Ideal) dot_S5000x128_S128x128_S5000x128_1_0_0_1_n_n none (truncf .bf16 (shapeCast S5000x128 M shapeCasts_S5000x128_S5000x128) bitsLt_bf16_f32)
          (transpose S128x128 [1, 0] (truncf .bf16 Wl bitsLt_bf16_f32) transposes_S128x128_p1_0_S128x128) (constant S5000x128 .f32 0x00000000#32) (ix2 r c)
        + matmul (F := Ideal) dot_S5000x128_S128x128_S5000x128_1_0_0_1_n_n none (truncf .bf16 (shapeCast S5000x128 X shapeCasts_S5000x128_S5000x128) bitsLt_bf16_f32)
          (transpose S128x128 [1, 0] (truncf .bf16 Wr bitsLt_bf16_f32) transposes_S128x128_p1_0_S128x128) (constant S5000x128 .f32 0x00000000#32) (ix2 r c))
      + broadcastTo S5000x128 (shapeCast S1x128 b shapeCasts_S1x128_S1x128) broadcasts_S1x128_S5000x128 (ix2 r c))
      (Ideal.ofBits .f32 0x00000000#32) = _
  rw [shapeCast_self, shapeCast_self, shapeCast_self, rows_mul_transpose128, rows_mul_transpose128, broadcastTo_1b_ab_apply, Ideal.ofBits_zero_f32]

/-- The output projection's body at entry `(r, c)`. -/
theorem project_at (H : Vec Ideal S5000x128 .f32) (W : Vec Ideal S4x128 .f32) (b : Vec Ideal S1x4 .f32)
    (r : Fin 5000) (c : Fin 4) :
    k2_pay1 (F := Ideal) H W b (ix2 r c) = ∑ k : Fin 128, H (ix2 r k) * W (ix2 c k) + b (ix2 (0 : Fin 1) c) := by
  unfold k2_pay1
  show matmul (F := Ideal) dot_S5000x128_S128x4_S5000x4_1_0_0_1_n_n none (truncf .bf16 (shapeCast S5000x128 H shapeCasts_S5000x128_S5000x128) bitsLt_bf16_f32)
          (transpose S128x4 [1, 0] (truncf .bf16 W bitsLt_bf16_f32) transposes_S4x128_p1_0_S128x4) (constant S5000x4 .f32 0x00000000#32) (ix2 r c)
      + broadcastTo S5000x4 (shapeCast S1x4 b shapeCasts_S1x4_S1x4) broadcasts_S1x4_S5000x4 (ix2 r c) = _
  rw [shapeCast_self, shapeCast_self, rows_mul_transpose4, broadcastTo_1b_ab_apply]

end Cert.KernelIdeal.Body

end
-- ==== Proof.Layers.lean ====
/-
  The network's dense layers as whole-array functions on extended reals.

  A SAGE layer sends the aggregated neighbour means `M` and the node's own features `X` (both `100000 × 128`)
  to `max( (M · Wlᵀ + X · Wrᵀ) + b, 0 )`: at node `n` and output feature `c`,
      max( (Σ_k M[n,k]·Wl[c,k] + Σ_k X[n,k]·Wr[c,k]) + b[c], 0 ).
  The output projection sends `H` to `H · Wᵀ + b` with a `4 × 128` weight. Each entry depends on ONE row of
  the node arrays, which is why a tiling of the nodes into blocks of rows computes the same array. The bias
  is taken as a function of the output feature, so that a `[128]` array and its `[1, 128]` reshape both fit.
-/
import Idealize.ShloMosaic.PureOps.Ideal
import Idealize.ShloMosaic.Lib.ValueIdx

noncomputable section

namespace Cert.Layers

open Idealize.ShloMosaic Idealize.ShloMosaic.ValueIdx

/-- One SAGE layer with its clamp at zero, entry by entry. -/
def sage (M X : (⟨2, ![100000, 128]⟩ : Shape).Idx → EReal) (Wl Wr : (⟨2, ![128, 128]⟩ : Shape).Idx → EReal)
    (b : Fin 128 → EReal) : (⟨2, ![100000, 128]⟩ : Shape).Idx → EReal :=
  fun i => max ((∑ k : Fin 128, M (ix2 (i 0) k) * Wl (ix2 (i 1) k) + ∑ k : Fin 128, X (ix2 (i 0) k) * Wr (ix2 (i 1) k)) + b (i 1)) 0

/-- The output projection, entry by entry. -/
def project (H : (⟨2, ![100000, 128]⟩ : Shape).Idx → EReal) (W : (⟨2, ![4, 128]⟩ : Shape).Idx → EReal)
    (b : Fin 4 → EReal) : (⟨2, ![100000, 4]⟩ : Shape).Idx → EReal :=
  fun i => ∑ k : Fin 128, H (ix2 (i 0) k) * W (ix2 (i 1) k) + b (i 1)

end Cert.Layers

end
-- ==== Proof.Region0.lean ====
/-
  Region 0 of the program: a SAGE layer tiled over the nodes, 20 blocks of 5000 rows.

  Grid point `t` reads rows `5000·t … 5000·t + 4999` of the means and of the features, the two whole weight
  matrices and the whole bias row, and writes the same rows of the result. Since an entry of the layer depends on
  one row of the node arrays only, the block a point writes IS that block of the whole-array layer; and since
  100000 = 20 · 5000 the 20 blocks cover every row (row `n` lies in block `n / 5000`). Hence the result array
  ends holding the whole-array layer of the arrays as the region finds them, whatever those are.
-/
import proofs.«104540_j32066225832031_1_alg».proof.Proof.Gen.KernelIdeal.Frame
import proofs.«104540_j32066225832031_1_alg».proof.Proof.Payload
import proofs.«104540_j32066225832031_1_alg».proof.Proof.Layers

set_option maxRecDepth 16384

noncomputable section

namespace Cert.KernelIdeal.Region0

open Cert.KernelIdeal Cert.KernelIdeal.Gen Cert.KernelIdeal.Body Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored block at a block entry is the layer's entry at the array index `e`, as soon as the row of
    the two node blocks the entry reads is the row of the arrays that `e` names, and the weights and the bias
    are the whole arrays. -/
theorem block_entry (M X : Vec Ideal S5000x128 .f32) (Wl Wr : Vec Ideal S128x128 .f32) (b : Vec Ideal S1x128 .f32)
    (AM AX : S100000x128.Idx → EReal) (AWl AWr : S128x128.Idx → EReal) (Ab : S1x128.Idx → EReal)
    (j : S5000x128.Idx) (e : S100000x128.Idx)
    (hM : ∀ k : Fin 128, M (ix2 (j 0) k) = AM (ix2 (e 0) k)) (hX : ∀ k : Fin 128, X (ix2 (j 0) k) = AX (ix2 (e 0) k))
    (hWl : Wl = AWl) (hWr : Wr = AWr) (hb : b = Ab) (he : (e 1).val = (j 1).val) :
    k0_pay1 (F := Ideal) M X Wl Wr b j = sage AM AX AWl AWr (fun q => Ab (ix2 (0 : Fin 1) q)) e := by
  subst hWl hWr hb
  have he' : (e 1 : Fin 128) = (j 1 : Fin 128) := Fin.ext he
  have hj : j = ix2 (n0 := 5000) (n1 := 128) (j 0) (j 1) := eq_ix2 (n0 := 5000) (n1 := 128) j
  rw [hj, layer0_at M X Wl Wr b (j 0) (j 1)]
  unfold sage
  rw [he']
  simp only [hM, hX]

/-- The printed index maps, decided over the 20 grid points: the two node windows move with the output window
    along the rows, every other block index is zero. -/
theorem index_facts : ∀ t : Fin cfg0.N, win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every one of the 20 row blocks is some point's. -/
theorem index_onto : ∀ q : Fin 20, ∃ t : Fin cfg0.N, win0_5.index t = ![q.val, 0] :=
  (by decide +kernel : ∀ q : Fin 20, ∃ t : Fin grid0.N, win0_5.index t = ![q.val, 0])

/-- What point `t` writes back is block `t` of the whole-array layer of the arrays as the region finds them. -/
theorem flushed_eq (c : Dev nD) (t : Fin cfg0.N) :
    (dat0 (F := Ideal) V c).flushed 5 t = ((cfg0.win 5).blk t).view.read (Elt Ideal)
      (sage (V c main_v24) (V c main_arg0) (V c main_arg2) (V c main_arg4) (fun q => V c main_v25 (ix2 (0 : Fin 1) q))) := by
  show (cfg0.win 5).cut (grid0.coords t) ((dat0 (F := Ideal) V c).after 5 t) = _
  rw [after0_5]
  unfold out0_5
  rw [View.canon_unit_zero origin]
  simp only [View.ld_unit_zero (S := S5000x128) origin, View.ld_unit_zero (S := S128x128) origin, View.ld_unit_zero (S := S1x128) origin]
  obtain ⟨e0, e1, e2, e3, e4, e5, e6, e7, e8, e9, e10, e11⟩ := index_facts t
  funext j
  show k0_pay1 (F := Ideal) (iblk0 V c 0 t) (iblk0 V c 1 t) (iblk0 V c 2 t) (iblk0 V c 4 t) (iblk0 V c 3 t) j
      = sage (V c main_v24) (V c main_arg0) (V c main_arg2) (V c main_arg4) (fun q => V c main_v25 (ix2 (0 : Fin 1) q)) (((cfg0.win 5).blk t).view.emb j)
  refine block_entry (iblk0 V c 0 t) (iblk0 V c 1 t) (iblk0 V c 2 t) (iblk0 V c 4 t) (iblk0 V c 3 t)
    (V c main_v24) (V c main_arg0) (V c main_arg2) (V c main_arg4) (V c main_v25) j (((cfg0.win 5).blk t).view.emb j) ?_ ?_ ?_ ?_ ?_ ?_
  · intro k
    show V c main_v24 (((cfg0.win 0).blk t).view.emb (ix2 (j 0) k)) = V c main_v24 (ix2 ((((cfg0.win 5).blk t).view.emb j) 0) k)
    refine congrArg _ (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · intro k
    show V c main_arg0 (((cfg0.win 1).blk t).view.emb (ix2 (j 0) k)) = V c main_arg0 (ix2 ((((cfg0.win 5).blk t).view.emb j) 0) k)
    refine congrArg _ (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · funext y
    show V c main_arg2 (((cfg0.win 2).blk t).view.emb y) = V c main_arg2 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_arg4 (((cfg0.win 4).blk t).view.emb y) = V c main_arg4 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show V c main_v25 (((cfg0.win 3).blk t).view.emb y) = V c main_v25 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  · show win0_5.index t (1 : Fin 2) * 128 + 1 * (j 1).val = (j 1).val; omega

/-- An index of the result array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Row `n` of the result lies in the block of point `n / 5000`: the 20 blocks cover the array. -/
theorem covered (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the region: the whole-array layer of the arrays as the region finds them. -/
theorem result (c : Dev nD) : (dat0 (F := Ideal) V c).arrAt 5 cfg0.N
    = sage (V c main_v24) (V c main_arg0) (V c main_arg2) (V c main_arg4) (fun q => V c main_v25 (ix2 (0 : Fin 1) q)) :=
  (dat0 (F := Ideal) V c).arrAt_eq_of_cover 5 _ (fun t _ => flushed_eq V c t) covered

end Cert.KernelIdeal.Region0

end
-- ==== Proof.Region1.lean ====
/-
  Region 1 of the program: a SAGE layer tiled over the nodes, 20 blocks of 5000 rows.

  Grid point `t` reads rows `5000·t … 5000·t + 4999` of the means and of the features, the two whole weight
  matrices and the whole bias row, and writes the same rows of the result. Since an entry of the layer depends on
  one row of the node arrays only, the block a point writes IS that block of the whole-array layer; and since
  100000 = 20 · 5000 the 20 blocks cover every row (row `n` lies in block `n / 5000`). Hence the result array
  ends holding the whole-array layer of the arrays as the region finds them, whatever those are.
-/
import proofs.«104540_j32066225832031_1_alg».proof.Proof.Gen.KernelIdeal.Frame
import proofs.«104540_j32066225832031_1_alg».proof.Proof.Payload
import proofs.«104540_j32066225832031_1_alg».proof.Proof.Layers

set_option maxRecDepth 16384

noncomputable section

namespace Cert.KernelIdeal.Region1

open Cert.KernelIdeal Cert.KernelIdeal.Gen Cert.KernelIdeal.Body Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored block at a block entry is the layer's entry at the array index `e`, as soon as the row of
    the two node blocks the entry reads is the row of the arrays that `e` names, and the weights and the bias
    are the whole arrays. -/
theorem block_entry (M X : Vec Ideal S5000x128 .f32) (Wl Wr : Vec Ideal S128x128 .f32) (b : Vec Ideal S1x128 .f32)
    (AM AX : S100000x128.Idx → EReal) (AWl AWr : S128x128.Idx → EReal) (Ab : S1x128.Idx → EReal)
    (j : S5000x128.Idx) (e : S100000x128.Idx)
    (hM : ∀ k : Fin 128, M (ix2 (j 0) k) = AM (ix2 (e 0) k)) (hX : ∀ k : Fin 128, X (ix2 (j 0) k) = AX (ix2 (e 0) k))
    (hWl : Wl = AWl) (hWr : Wr = AWr) (hb : b = Ab) (he : (e 1).val = (j 1).val) :
    k1_pay1 (F := Ideal) M X Wl Wr b j = sage AM AX AWl AWr (fun q => Ab (ix2 (0 : Fin 1) q)) e := by
  subst hWl hWr hb
  have he' : (e 1 : Fin 128) = (j 1 : Fin 128) := Fin.ext he
  have hj : j = ix2 (n0 := 5000) (n1 := 128) (j 0) (j 1) := eq_ix2 (n0 := 5000) (n1 := 128) j
  rw [hj, layer1_at M X Wl Wr b (j 0) (j 1)]
  unfold sage
  rw [he']
  simp only [hM, hX]

/-- The printed index maps, decided over the 20 grid points: the two node windows move with the output window
    along the rows, every other block index is zero. -/
theorem index_facts : ∀ t : Fin cfg1.N, win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every one of the 20 row blocks is some point's. -/
theorem index_onto : ∀ q : Fin 20, ∃ t : Fin cfg1.N, win1_5.index t = ![q.val, 0] :=
  (by decide +kernel : ∀ q : Fin 20, ∃ t : Fin grid1.N, win1_5.index t = ![q.val, 0])

/-- What point `t` writes back is block `t` of the whole-array layer of the arrays as the region finds them. -/
theorem flushed_eq (c : Dev nD) (t : Fin cfg1.N) :
    (dat1 (F := Ideal) V c).flushed 5 t = ((cfg1.win 5).blk t).view.read (Elt Ideal)
      (sage (V c main_v39) (V c main_v26) (V c main_arg5) (V c main_arg7) (fun q => V c main_v40 (ix2 (0 : Fin 1) q))) := by
  show (cfg1.win 5).cut (grid1.coords t) ((dat1 (F := Ideal) V c).after 5 t) = _
  rw [after1_5]
  unfold out1_5
  rw [View.canon_unit_zero origin]
  simp only [View.ld_unit_zero (S := S5000x128) origin, View.ld_unit_zero (S := S128x128) origin, View.ld_unit_zero (S := S1x128) origin]
  obtain ⟨e0, e1, e2, e3, e4, e5, e6, e7, e8, e9, e10, e11⟩ := index_facts t
  funext j
  show k1_pay1 (F := Ideal) (iblk1 V c 0 t) (iblk1 V c 1 t) (iblk1 V c 2 t) (iblk1 V c 4 t) (iblk1 V c 3 t) j
      = sage (V c main_v39) (V c main_v26) (V c main_arg5) (V c main_arg7) (fun q => V c main_v40 (ix2 (0 : Fin 1) q)) (((cfg1.win 5).blk t).view.emb j)
  refine block_entry (iblk1 V c 0 t) (iblk1 V c 1 t) (iblk1 V c 2 t) (iblk1 V c 4 t) (iblk1 V c 3 t)
    (V c main_v39) (V c main_v26) (V c main_arg5) (V c main_arg7) (V c main_v40) j (((cfg1.win 5).blk t).view.emb j) ?_ ?_ ?_ ?_ ?_ ?_
  · intro k
    show V c main_v39 (((cfg1.win 0).blk t).view.emb (ix2 (j 0) k)) = V c main_v39 (ix2 ((((cfg1.win 5).blk t).view.emb j) 0) k)
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · intro k
    show V c main_v26 (((cfg1.win 1).blk t).view.emb (ix2 (j 0) k)) = V c main_v26 (ix2 ((((cfg1.win 5).blk t).view.emb j) 0) k)
    refine congrArg _ (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · funext y
    show V c main_arg5 (((cfg1.win 2).blk t).view.emb y) = V c main_arg5 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_arg7 (((cfg1.win 4).blk t).view.emb y) = V c main_arg7 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  · funext y
    show V c main_v40 (((cfg1.win 3).blk t).view.emb y) = V c main_v40 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · show win1_5.index t (1 : Fin 2) * 128 + 1 * (j 1).val = (j 1).val; omega

/-- An index of the result array is in point `t`'s block iff each coordinate is in the block's range on its axis. -/
theorem mem_block (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- Row `n` of the result lies in the block of point `n / 5000`: the 20 blocks cover the array. -/
theorem covered (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE RESULT ARRAY after the region: the whole-array layer of the arrays as the region finds them. -/
theorem result (c : Dev nD) : (dat1 (F := Ideal) V c).arrAt 5 cfg1.N
    = sage (V c main_v39) (V c main_v26) (V c main_arg5) (V c main_arg7) (fun q => V c main_v40 (ix2 (0 : Fin 1) q)) :=
  (dat1 (F := Ideal) V c).arrAt_eq_of_cover 5 _ (fun t _ => flushed_eq V c t) covered

end Cert.KernelIdeal.Region1

end
-- ==== Proof.Region2.lean ====
/-
  Region 2 of the program: the output projection tiled over the nodes, 20 blocks of 5000 rows.

  Grid point `t` reads rows `5000·t … 5000·t + 4999` of the hidden features, the whole `4 × 128` weight and the
  whole bias row, and writes the same rows of the `100000 × 4` result. An entry of the projection depends on one
  row of the hidden features only, so the block a point writes is that block of the whole-array projection, and
  the 20 blocks cover every row (row `n` lies in block `n / 5000`).
-/
import proofs.«104540_j32066225832031_1_alg».proof.Proof.Gen.KernelIdeal.Frame
import proofs.«104540_j32066225832031_1_alg».proof.Proof.Payload
import proofs.«104540_j32066225832031_1_alg».proof.Proof.Layers

set_option maxRecDepth 16384

noncomputable section

namespace Cert.KernelIdeal.Region2

open Cert.KernelIdeal Cert.KernelIdeal.Gen Cert.KernelIdeal.Body Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored block at a block entry is the projection's entry at the array index `e`, as soon as the
    row of the hidden block the entry reads is the row of the array that `e` names, and the weight and the bias
    are the whole arrays. -/
theorem block_entry (H : Vec Ideal S5000x128 .f32) (W : Vec Ideal S4x128 .f32) (b : Vec Ideal S1x4 .f32)
    (AH : S100000x128.Idx → EReal) (AW : S4x128.Idx → EReal) (Ab : S1x4.Idx → EReal)
    (j : S5000x4.Idx) (e : S100000x4.Idx)
    (hH : ∀ k : Fin 128, H (ix2 (j 0) k) = AH (ix2 (e 0) k))
    (hW : W = AW) (hb : b = Ab) (he : (e 1).val = (j 1).val) :
    k2_pay1 (F := Ideal) H W b j = project AH AW (fun q => Ab (ix2 (0 : Fin 1) q)) e := by
  subst hW hb
  have he' : (e 1 : Fin 4) = (j 1 : Fin 4) := Fin.ext he
  have hj : j = ix2 (n0 := 5000) (n1 := 4) (j 0) (j 1) := eq_ix2 (n0 := 5000) (n1 := 4) j
  rw [hj, project_at H W b (j 0) (j 1)]
  unfold project
  rw [he']
  simp only [hH]

/-- The printed index maps, decided over the 20 grid points: the hidden window moves with the output window along
    the rows, every other block index is zero. -/
theorem index_facts : ∀ t : Fin cfg2.N, win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 19 :=
  (by decide +kernel : ∀ t : Fin grid2.N, _)

/-- Every one of the 20 row blocks is some point's. -/
theorem index_onto : ∀ q : Fin 20, ∃ t : Fin cfg2.N, win2_3.index t = ![q.val, 0] :=
  (by decide +kernel : ∀ q : Fin 20, ∃ t : Fin grid2.N, win2_3.index t = ![q.val, 0])

/-- What point `t` writes back is block `t` of the whole-array projection of the arrays as the region finds them. -/
theorem flushed_eq (c : Dev nD) (t : Fin cfg2.N) :
    (dat2 (F := Ideal) V c).flushed 3 t = ((cfg2.win 3).blk t).view.read (Elt Ideal)
      (project (V c main_v41) (V c main_arg8) (fun q => V c main_v42 (ix2 (0 : Fin 1) q))) := by
  show (cfg2.win 3).cut (grid2.coords t) ((dat2 (F := Ideal) V c).after 3 t) = _
  rw [after2_3]
  unfold out2_3
  rw [View.canon_unit_zero origin]
  simp only [View.ld_unit_zero (S := S5000x128) origin, View.ld_unit_zero (S := S4x128) origin, View.ld_unit_zero (S := S1x4) origin]
  obtain ⟨e0, e1, e2, e3, e4, e5, e6, e7⟩ := index_facts t
  funext j
  show k2_pay1 (F := Ideal) (iblk2 V c 0 t) (iblk2 V c 1 t) (iblk2 V c 2 t) j
      = project (V c main_v41) (V c main_arg8) (fun q => V c main_v42 (ix2 (0 : Fin 1) q)) (((cfg2.win 3).blk t).view.emb j)
  refine block_entry (iblk2 V c 0 t) (iblk2 V c 1 t) (iblk2 V c 2 t)
    (V c main_v41) (V c main_arg8) (V c main_v42) j (((cfg2.win 3).blk t).view.emb j) ?_ ?_ ?_ ?_
  · intro k
    show V c main_v41 (((cfg2.win 0).blk t).view.emb (ix2 (j 0) k)) = V c main_v41 (ix2 ((((cfg2.win 3).blk t).view.emb j) 0) k)
    refine congrArg _ (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  · funext y
    show V c main_arg8 (((cfg2.win 1).blk t).view.emb y) = V c main_arg8 y
    refine congrArg _ (funext fun a => Fin.ext ?_)
    match a with
    | ⟨0, _⟩ => show win2_1.index t (0 : Fin 2) * 4 + 1 * (y 0).val = (y 0).val; omega
    | ⟨1, _⟩ => show win2_1.index t (1 : Fin 2) * 128 + 1 * (y 1).val = (y 1).val; omega
  · funext y
    show V c main_v42 (((cfg2.win 2).blk t).view.emb y) = V c main_v42 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 4 + 1 * (y 1).val = (y 1).val; omega
  · show win2_3.index t (1 : Fin 2) * 4 + 1 * (j 1).val = (j 1).val; omega

/-- An index of the result array is in point `t`'s block iff each coordinate is in the block's range on its axis. -/
theorem mem_block (t : Fin cfg2.N) (i : S100000x4.Idx) :
    i ∈ ((cfg2.win 3).blk t).view.set ↔ ∀ a : Fin 2, win2_3.index t a * S5000x4.size a ≤ (i a).val ∧ (i a).val < win2_3.index t a * S5000x4.size a + S5000x4.size a := by
  show i ∈ ((View.whole main_v43).slice (win2_3.rect t)).set ↔ _
  rw [View.set_slice_whole, Rect.mem_set_unit]
  exact Iff.rfl

/-- Row `n` of the result lies in the block of point `n / 5000`: the 20 blocks cover the array. -/
theorem covered (i : S100000x4.Idx) : ∃ t : Fin cfg2.N, (cfg2.win 3).flush t = true ∧ i ∈ ((cfg2.win 3).blk t).view.set := by
  have hi0 : (i 0).val < 100000 := (i 0).isLt
  have hi1 : (i 1).val < 4 := (i 1).isLt
  obtain ⟨t, ht⟩ := index_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 4 ≤ (i 1).val ∧ (i 1).val < win2_3.index t (1 : Fin 2) * 4 + 4; omega

/-- THE RESULT ARRAY after the region: the whole-array projection of the arrays as the region finds them. -/
theorem result (c : Dev nD) : (dat2 (F := Ideal) V c).arrAt 3 cfg2.N
    = project (V c main_v41) (V c main_arg8) (fun q => V c main_v42 (ix2 (0 : Fin 1) q)) :=
  (dat2 (F := Ideal) V c).arrAt_eq_of_cover 3 _ (fun t _ => flushed_eq V c t) covered

end Cert.KernelIdeal.Region2

end
-- ==== Proof.MeanLaw.lean ====
/-
  A mean over a node's incoming edges is written two ways: as the sum of the gathered rows TIMES the
  reciprocal `1 / max(deg, 1)` of the clamped in-degree, and as that sum DIVIDED BY `max(deg, 1)`.
  On the extended reals the quotient `x / y` is `x · y⁻¹` whenever `y ≠ 0` (the inverse of an infinity
  being `0`), so `1 / y = y⁻¹` and the two spellings agree for EVERY extended real `x`, finite or not,
  as soon as `y ≠ 0`. The clamped degree `max(d, 1)` is at least one, whatever `d` is, hence never zero:
  no finiteness of the features or of the degree is used.
-/
import Idealize.ShloMosaic.PureOps.Ideal

noncomputable section

namespace Cert.MeanLaw

open Idealize.ShloMosaic

/-- The word of `1.0` denotes the real number one. -/
theorem one_word : Ideal.ofBits .f32 0x3F800000#32 = 1 := by
  simp [Ideal.ofBits, Ideal.ieee, -EReal.coe_mul]; norm_num

/-- A quantity clamped below by one is positive, so it is not zero. -/
theorem max_one_ne_zero (d : EReal) : max d 1 ≠ 0 :=
  ne_of_gt (lt_of_lt_of_le zero_lt_one (le_max_right d 1))

/-- Off zero the quotient is the product with the inverse: multiplying by the reciprocal `1 / y` is
    dividing by `y`, for every extended real `a`. -/
theorem mul_recip (a y : EReal) (hy : y ≠ 0) : a * Ideal.div 1 y = Ideal.div a y := by
  unfold Ideal.div
  rw [if_neg hy, if_neg hy, one_mul]

/-- The two spellings of a mean agree: the sum times the reciprocal of the clamped degree is the sum
    divided by the clamped degree. -/
theorem mean_mul_eq_div (a d : EReal) : a * Ideal.div 1 (max d 1) = Ideal.div a (max d 1) :=
  mul_recip a _ (max_one_ne_zero d)

end Cert.MeanLaw

end
-- ==== Proof.Chain.lean ====
/-
  The neighbourhood mean, which both programs compute with the same host operations up to its last step.

  For a feature array `f` and an edge list, both programs gather the source rows, add them into the destination
  nodes (a scatter-add into zeros), count each node's incoming edges the same way, and clamp the count below by
  one. They differ only in the last step: one DIVIDES the sums by the clamped count broadcast along the features;
  the other first takes the reciprocal `1 / max(deg, 1)` per node, broadcasts it, and MULTIPLIES. The gather, the
  two scatter-adds and the index arithmetic are never opened here: whatever they compute, both programs compute
  it from the same operands. Entry by entry the two last steps are `a · (1 / y)` and `a / y` with
  `y = max(deg, 1) ≠ 0`, which agree on every extended real `a`.
-/
import proofs.«104540_j32066225832031_1_alg».proof.Proof.Gen.ReferenceIdeal.Read
import proofs.«104540_j32066225832031_1_alg».proof.Proof.MeanLaw

noncomputable section

namespace Cert.Chain

open Cert.ReferenceIdeal Cert.ReferenceIdeal.Gen Cert.ReferenceIdeal.Read Idealize.ShloMosaic Idealize.ShloMosaic.ValueIdx

/-- A per-node quantity broadcast along the 128 features, read at an entry, is the quantity at the entry's node. -/
theorem per_node_apply (y : (⟨S100000, .f32⟩ : BufTy).Contents (Elt Ideal)) (i : S100000x128.Idx) :
    broadcastInDim S100000x128 ![0, 1] bcast_S100000x1_S100000x128_0_1 (broadcastInDim S100000x1 ![0] bcast_S100000_S100000x1_0 y) i
      = y (idx_main_v20 (idx_main_v21 i)) := by
  refine (broadcastInDim_apply _ bcast_S100000x1_S100000x128_0_1 _ i (idx_main_v21 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  exact broadcastInDim_apply _ bcast_S100000_S100000x1_0 y (idx_main_v21 i) (idx_main_v20 (idx_main_v21 i)) (fun a => match a with
    | ⟨0, _⟩ => by show (i 0).val = if (100000 : Nat) = 1 then 0 else (i 0).val; rw [if_neg (by decide)])

/-- The mean in its PRODUCT form: the scatter-added sums times the broadcast reciprocal of the clamped in-degree. -/
def meanByReciprocal (f : (⟨S100000x128, .f32⟩ : BufTy).Contents (Elt Ideal)) (ei : (⟨S2x1600000, .i32⟩ : BufTy).Contents (Elt Ideal)) :
    (⟨S100000x128, .f32⟩ : BufTy).Contents (Elt Ideal) :=
  mulf (F := Ideal) (φ := .f32) (val_main_v13 (F := Ideal) f ei)
    (broadcastInDim S100000x128 ![0, 1] bcast_S100000x1_S100000x128_0_1 (broadcastInDim S100000x1 ![0] bcast_S100000_S100000x1_0
      (Host.divf (F := Ideal) (φ := .f32) (val_main_v18 (F := Ideal)) (val_main_v19 (F := Ideal) ei))))

/-- A product of two node arrays at an entry is the product of the entries. -/
theorem mul_at (a b : (⟨S100000x128, .f32⟩ : BufTy).Contents (Elt Ideal)) (i : S100000x128.Idx) : mulf (F := Ideal) (φ := .f32) a b i = a i * b i := rfl

/-- A quotient of two per-node arrays at a node is the quotient of the entries. -/
theorem div_at (a b : (⟨S100000, .f32⟩ : BufTy).Contents (Elt Ideal)) (r : S100000.Idx) : Host.divf (F := Ideal) (φ := .f32) a b r = Ideal.div (a r) (b r) := rfl

/-- The broadcast constant one reads one at every node. -/
theorem ones_at (r : S100000.Idx) : val_main_v18 (F := Ideal) r = 1 := by
  rw [val_main_v18_apply, val_main_cst_3_apply]; exact MeanLaw.one_word

/-- The product form IS the quotient form, for every feature array and every edge list. -/
theorem meanByReciprocal_eq (f : (⟨S100000x128, .f32⟩ : BufTy).Contents (Elt Ideal)) (ei : (⟨S2x1600000, .i32⟩ : BufTy).Contents (Elt Ideal)) :
    meanByReciprocal f ei = val_main_v22 (F := Ideal) f ei := by
  funext i
  unfold meanByReciprocal
  rw [mul_at, per_node_apply, val_main_v22_apply, val_main_v21_apply, val_main_v20_apply]
  generalize idx_main_v20 (idx_main_v21 i) = r
  rw [div_at, val_main_v19_apply, ones_at]
  exact MeanLaw.mean_mul_eq_div _ _

end Cert.Chain

end
-- ==== Proof.KernelNet.lean ====
/-
  What the idealized kernel program's result buffer holds, as a function of the ten arguments.

  The contents are followed through the six segments. The first stretch of host operations leaves, in the buffer
  the first region reads its means from, the product-form mean of the features over the edge list, and the first
  bias reshaped to a row; the first region leaves the SAGE layer of those. The second stretch takes the mean of
  THAT array over the same edge list, reusing the source indices, the destination indices and the per-node
  reciprocals the first stretch computed (no region writes them); the second region leaves the layer of the new
  mean and of the first layer's output. The third stretch only reshapes the last bias; the third region leaves the
  output projection. A bias reshaped from `[n]` to `[1, n]` reads, at `(0, q)`, the bias at `q`.
-/
import proofs.«104540_j32066225832031_1_alg».proof.Proof.Gen.KernelIdeal.Frame
import proofs.«104540_j32066225832031_1_alg».proof.Proof.Region0
import proofs.«104540_j32066225832031_1_alg».proof.Proof.Region1
import proofs.«104540_j32066225832031_1_alg».proof.Proof.Region2
import proofs.«104540_j32066225832031_1_alg».proof.Proof.Chain
import Idealize.ShloMosaic.Lib.ValueLayout
import Idealize.ShloMosaic.Lib.StableHlo.Run

set_option maxRecDepth 16384

noncomputable section

namespace Cert.KernelIdeal.Net

open Cert.KernelIdeal Cert.KernelIdeal.Gen Cert.Layers
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The first stretch of host operations -/

/-- The first region reads its means from the product-form mean of the features. -/
theorem entry0_mean : V1 m ρ c main_v24 = Cert.Chain.meanByReciprocal (m ((c : Thread nD τ).loc main_arg0)) (m ((c : Thread nD τ).loc main_arg1)) := by
  show StableHlo.after hostOps0 (W0 m ρ c) (Proc.devRef .tc main_v24) = _
  after_results_simp <;> rfl

/-- Its bias row is the first bias reshaped. -/
theorem entry0_bias : V1 m ρ c main_v25 = shapeCast S1x128 (m ((c : Thread nD τ).loc main_arg3)) shapeCasts_S128_S1x128 := by
  show StableHlo.after hostOps0 (W0 m ρ c) (Proc.devRef .tc main_v25) = _
  after_results_simp <;> rfl

theorem entry0_features : V1 m ρ c main_arg0 = (m ((c : Thread nD τ).loc main_arg0)) := by
  show StableHlo.after hostOps0 (W0 m ρ c) (Proc.devRef .tc main_arg0) = _
  after_results_simp <;> rfl
theorem entry0_weight_l : V1 m ρ c main_arg2 = (m ((c : Thread nD τ).loc main_arg2)) := by
  show StableHlo.after hostOps0 (W0 m ρ c) (Proc.devRef .tc main_arg2) = _
  after_results_simp <;> rfl
theorem entry0_weight_r : V1 m ρ c main_arg4 = (m ((c : Thread nD τ).loc main_arg4)) := by
  show StableHlo.after hostOps0 (W0 m ρ c) (Proc.devRef .tc main_arg4) = _
  after_results_simp <;> rfl

/-- THE FIRST LAYER'S OUTPUT, as the first region leaves it. -/
theorem hidden1 : W2 m ρ c (Proc.devRef .tc main_v26)
    = sage (Cert.Chain.meanByReciprocal (m ((c : Thread nD τ).loc main_arg0)) (m ((c : Thread nD τ).loc main_arg1))) (m ((c : Thread nD τ).loc main_arg0)) (m ((c : Thread nD τ).loc main_arg2)) (m ((c : Thread nD τ).loc main_arg4))
        (fun q => (m ((c : Thread nD τ).loc main_arg3)) (ix1 q)) := by
  refine ((W2_arr m ρ c 5).trans (Cert.KernelIdeal.Region0.result (V1 m ρ) c)).trans ?_
  rw [entry0_mean, entry0_features, entry0_weight_l, entry0_weight_r, entry0_bias]
  exact congrArg (sage _ _ _ _) (funext fun q => shapeCast_a_1a_apply _ _ 0 q)

/-! ## What the first stretch computed and the second reuses: no region writes it -/

theorem arg5_after_region0 : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results_simp <;> rfl

theorem arg6_after_region0 : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results_simp <;> rfl

theorem arg7_after_region0 : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results_simp <;> rfl

theorem arg8_after_region0 : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  after_results_simp <;> rfl

theorem arg9_after_region0 : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  after_results_simp <;> rfl

/-- The source indices, as the first stretch sliced them from the edge list. -/
theorem sources_kept : W2 m ρ c (Proc.devRef .tc main_v1) = Cert.ReferenceIdeal.Read.val_main_v1 (F := Ideal) (m ((c : Thread nD τ).loc main_arg1)) := by
  rw [W2_of_ne m ρ c main_v1 (by decide)]
  show StableHlo.after hostOps0 (W0 m ρ c) (Proc.devRef .tc main_v1) = _
  after_results_simp <;> rfl

/-- The destination indices. -/
theorem destinations_kept : W2 m ρ c (Proc.devRef .tc main_v3) = Cert.ReferenceIdeal.Read.val_main_v3 (F := Ideal) (m ((c : Thread nD τ).loc main_arg1)) := by
  rw [W2_of_ne m ρ c main_v3 (by decide)]
  show StableHlo.after hostOps0 (W0 m ρ c) (Proc.devRef .tc main_v3) = _
  after_results_simp <;> rfl

/-- The per-node reciprocals of the clamped in-degree. -/
theorem reciprocals_kept : W2 m ρ c (Proc.devRef .tc main_v11)
    = Host.divf (F := Ideal) (φ := .f32) (Cert.ReferenceIdeal.Read.val_main_v18 (F := Ideal)) (Cert.ReferenceIdeal.Read.val_main_v19 (F := Ideal) (m ((c : Thread nD τ).loc main_arg1))) := by
  rw [W2_of_ne m ρ c main_v11 (by decide)]
  show StableHlo.after hostOps0 (W0 m ρ c) (Proc.devRef .tc main_v11) = _
  after_results_simp <;> rfl

/-! ## The second stretch of host operations -/

/-- The second region reads its means from the product-form mean of the first layer's output, over the same edges. -/
theorem entry1_mean : V3 m ρ c main_v39 = Cert.Chain.meanByReciprocal (W2 m ρ c (Proc.devRef .tc main_v26)) (m ((c : Thread nD τ).loc main_arg1)) := by
  show StableHlo.after hostOps1 (W2 m ρ c) (Proc.devRef .tc main_v39) = _
  after_results_simp
  rw [sources_kept, destinations_kept, reciprocals_kept]
  rfl

theorem entry1_hidden : V3 m ρ c main_v26 = W2 m ρ c (Proc.devRef .tc main_v26) := by
  show StableHlo.after hostOps1 (W2 m ρ c) (Proc.devRef .tc main_v26) = _
  after_results_simp <;> rfl

theorem entry1_bias : V3 m ρ c main_v40 = shapeCast S1x128 (m ((c : Thread nD τ).loc main_arg6)) shapeCasts_S128_S1x128 := by
  show StableHlo.after hostOps1 (W2 m ρ c) (Proc.devRef .tc main_v40) = _
  after_results_simp
  rw [arg6_after_region0]
  rfl

theorem entry1_weight_l : V3 m ρ c main_arg5 = (m ((c : Thread nD τ).loc main_arg5)) := by
  show StableHlo.after hostOps1 (W2 m ρ c) (Proc.devRef .tc main_arg5) = _
  after_results_simp
  exact arg5_after_region0 m ρ c
theorem entry1_weight_r : V3 m ρ c main_arg7 = (m ((c : Thread nD τ).loc main_arg7)) := by
  show StableHlo.after hostOps1 (W2 m ρ c) (Proc.devRef .tc main_arg7) = _
  after_results_simp
  exact arg7_after_region0 m ρ c

/-- THE SECOND LAYER'S OUTPUT, as the second region leaves it, over the first layer's output `H`. -/
theorem hidden2 : W4 m ρ c (Proc.devRef .tc main_v41)
    = sage (Cert.Chain.meanByReciprocal (W2 m ρ c (Proc.devRef .tc main_v26)) (m ((c : Thread nD τ).loc main_arg1))) (W2 m ρ c (Proc.devRef .tc main_v26))
        (m ((c : Thread nD τ).loc main_arg5)) (m ((c : Thread nD τ).loc main_arg7)) (fun q => (m ((c : Thread nD τ).loc main_arg6)) (ix1 q)) := by
  refine ((W4_arr m ρ c 5).trans (Cert.KernelIdeal.Region1.result (V3 m ρ) c)).trans ?_
  rw [entry1_mean, entry1_hidden, entry1_weight_l, entry1_weight_r, entry1_bias]
  exact congrArg (sage _ _ _ _) (funext fun q => shapeCast_a_1a_apply _ _ 0 q)

/-! ## The third stretch and the output projection -/

theorem arg8_after_region1 : W4 m ρ c (Proc.devRef .tc main_arg8) = (m ((c : Thread nD τ).loc main_arg8)) := by
  rw [W4_of_ne m ρ c main_arg8 (by decide)]
  show StableHlo.after hostOps1 (W2 m ρ c) (Proc.devRef .tc main_arg8) = _
  after_results_simp
  exact arg8_after_region0 m ρ c

theorem arg9_after_region1 : W4 m ρ c (Proc.devRef .tc main_arg9) = (m ((c : Thread nD τ).loc main_arg9)) := by
  rw [W4_of_ne m ρ c main_arg9 (by decide)]
  show StableHlo.after hostOps1 (W2 m ρ c) (Proc.devRef .tc main_arg9) = _
  after_results_simp
  exact arg9_after_region0 m ρ c

theorem entry2_hidden : V5 m ρ c main_v41 = W4 m ρ c (Proc.devRef .tc main_v41) := by
  show StableHlo.after hostOps2 (W4 m ρ c) (Proc.devRef .tc main_v41) = _
  after_results_simp <;> rfl

theorem entry2_weight : V5 m ρ c main_arg8 = (m ((c : Thread nD τ).loc main_arg8)) := by
  show StableHlo.after hostOps2 (W4 m ρ c) (Proc.devRef .tc main_arg8) = _
  after_results_simp
  exact arg8_after_region1 m ρ c

theorem entry2_bias : V5 m ρ c main_v42 = shapeCast S1x4 (m ((c : Thread nD τ).loc main_arg9)) shapeCasts_S4_S1x4 := by
  show StableHlo.after hostOps2 (W4 m ρ c) (Proc.devRef .tc main_v42) = _
  after_results_simp
  rw [arg9_after_region1]
  rfl

/-- THE RESULT: the output projection of the second layer's output, the second layer taken over the first. -/
theorem result : W6 m ρ c (Proc.devRef .tc main_v43)
    = project
        (sage (Cert.Chain.meanByReciprocal
                (sage (Cert.Chain.meanByReciprocal (m ((c : Thread nD τ).loc main_arg0)) (m ((c : Thread nD τ).loc main_arg1))) (m ((c : Thread nD τ).loc main_arg0)) (m ((c : Thread nD τ).loc main_arg2)) (m ((c : Thread nD τ).loc main_arg4)) (fun q => (m ((c : Thread nD τ).loc main_arg3)) (ix1 q)))
                (m ((c : Thread nD τ).loc main_arg1)))
              (sage (Cert.Chain.meanByReciprocal (m ((c : Thread nD τ).loc main_arg0)) (m ((c : Thread nD τ).loc main_arg1))) (m ((c : Thread nD τ).loc main_arg0)) (m ((c : Thread nD τ).loc main_arg2)) (m ((c : Thread nD τ).loc main_arg4)) (fun q => (m ((c : Thread nD τ).loc main_arg3)) (ix1 q)))
              (m ((c : Thread nD τ).loc main_arg5)) (m ((c : Thread nD τ).loc main_arg7)) (fun q => (m ((c : Thread nD τ).loc main_arg6)) (ix1 q)))
        (m ((c : Thread nD τ).loc main_arg8)) (fun q => (m ((c : Thread nD τ).loc main_arg9)) (ix1 q)) := by
  refine ((W6_arr m ρ c 3).trans (Cert.KernelIdeal.Region2.result (V5 m ρ) c)).trans ?_
  rw [entry2_hidden, entry2_weight, entry2_bias, hidden2, hidden1]
  exact congrArg (project _ _) (funext fun q => shapeCast_a_1a_apply _ _ 0 q)

end Cert.KernelIdeal.Net

end
-- ==== Proof.RefValue.lean ====
/-
  The reference program, read as the network it states.

  Its first dense stage is the SAGE layer of the quotient-form mean of the features and of the features
  themselves; its second mean is the SAME mean function applied to the first layer's output (the gather, the
  scatter-adds and the degree count are spelt again, operation for operation); its second dense stage is the layer
  of that mean and of the first layer's output; its last stage is the output projection. The reference adds the
  bias BETWEEN the two products, `(M·Wlᵀ + b) + X·Wrᵀ`, where the layer is stated as `(M·Wlᵀ + X·Wrᵀ) + b`: addition
  of extended reals is commutative and associative, so the two groupings are one value, with no finiteness needed.
  A `dot_general` against a transposed weight contracts over the weight's second axis, which is where the layer's
  sums run.
-/
import proofs.«104540_j32066225832031_1_alg».proof.Proof.Gen.ReferenceIdeal.Read
import proofs.«104540_j32066225832031_1_alg».proof.Proof.Layers

noncomputable section

namespace Cert.RefValue

open Cert.ReferenceIdeal Cert.ReferenceIdeal.Gen Cert.ReferenceIdeal.Read Cert.Layers
open Idealize.ShloMosaic Idealize.ShloMosaic.ValueIdx

/-- The first dense stage with its clamp is the layer of the mean of the features and of the features. -/
theorem first_layer (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 x1 x2 x3 x4 = sage (val_main_v22 (F := Ideal) x0 x1) (x0) x2 x4 (fun q => x3 (ix1 q)) := by
  funext i
  have e1 : ∀ k : Fin 128, lidx_main_v24 i k = ix2 (n0 := 100000) (n1 := 128) (i 0) k := fun k => funext fun a => Fin.ext (by match a with | ⟨0, _⟩ => rfl | ⟨1, _⟩ => rfl)
  have e2 : ∀ k : Fin 128, idx_main_v23 (ridx_main_v24 i k) = ix2 (n0 := 128) (n1 := 128) (i 1) k := fun k => funext fun a => Fin.ext (by match a with | ⟨0, _⟩ => rfl | ⟨1, _⟩ => rfl)
  have e3 : ∀ k : Fin 128, lidx_main_v29 i k = ix2 (n0 := 100000) (n1 := 128) (i 0) k := fun k => funext fun a => Fin.ext (by match a with | ⟨0, _⟩ => rfl | ⟨1, _⟩ => rfl)
  have e4 : ∀ k : Fin 128, idx_main_v28 (ridx_main_v29 i k) = ix2 (n0 := 128) (n1 := 128) (i 1) k := fun k => funext fun a => Fin.ext (by match a with | ⟨0, _⟩ => rfl | ⟨1, _⟩ => rfl)
  have e5 : idx_main_v25 (idx_main_v26 i) = ix1 (n := 128) (i 1) := funext fun a => Fin.ext (by match a with | ⟨0, _⟩ => rfl)
  rw [val_main_v31_apply, val_main_v30_apply, val_main_v27_apply, val_main_v24_apply, val_main_v29_apply, val_main_v26_apply, val_main_v25_apply, val_main_call0_v0_apply, val_main_call0_cst_apply]
  simp only [val_main_v23_apply, val_main_v28_apply, e1, e2, e3, e4, e5]
  show max ((∑ k : Fin 128, (val_main_v22 (F := Ideal) x0 x1) (ix2 (n0 := 100000) (n1 := 128) (i 0) k) * x2 (ix2 (n0 := 128) (n1 := 128) (i 1) k) + x3 (ix1 (n := 128) (i 1)))
        + ∑ k : Fin 128, (x0) (ix2 (n0 := 100000) (n1 := 128) (i 0) k) * x4 (ix2 (n0 := 128) (n1 := 128) (i 1) k)) (Ideal.ofBits .f32 0x00000000#32)
      = max ((∑ k : Fin 128, (val_main_v22 (F := Ideal) x0 x1) (ix2 (n0 := 100000) (n1 := 128) (i 0) k) * x2 (ix2 (n0 := 128) (n1 := 128) (i 1) k)
        + ∑ k : Fin 128, (x0) (ix2 (n0 := 100000) (n1 := 128) (i 0) k) * x4 (ix2 (n0 := 128) (n1 := 128) (i 1) k)) + x3 (ix1 (n := 128) (i 1))) 0
  rw [Ideal.ofBits_zero_f32, add_right_comm]

/-- The second mean is the first mean's function of the first layer's output: the same operations on the same edge list. -/
theorem second_mean (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v50 (F := Ideal) x0 x1 x2 x3 x4 = val_main_v22 (F := Ideal) (val_main_v31 (F := Ideal) x0 x1 x2 x3 x4) x1 := rfl

/-- The second dense stage with its clamp is the layer of the second mean and of the first layer's output. -/
theorem second_layer (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v59 (F := Ideal) x0 x1 x2 x3 x4 x5 x6 x7 = sage (val_main_v50 (F := Ideal) x0 x1 x2 x3 x4) (val_main_v31 (F := Ideal) x0 x1 x2 x3 x4) x5 x7 (fun q => x6 (ix1 q)) := by
  funext i
  have e1 : ∀ k : Fin 128, lidx_main_v52 i k = ix2 (n0 := 100000) (n1 := 128) (i 0) k := fun k => funext fun a => Fin.ext (by match a with | ⟨0, _⟩ => rfl | ⟨1, _⟩ => rfl)
  have e2 : ∀ k : Fin 128, idx_main_v51 (ridx_main_v52 i k) = ix2 (n0 := 128) (n1 := 128) (i 1) k := fun k => funext fun a => Fin.ext (by match a with | ⟨0, _⟩ => rfl | ⟨1, _⟩ => rfl)
  have e3 : ∀ k : Fin 128, lidx_main_v57 i k = ix2 (n0 := 100000) (n1 := 128) (i 0) k := fun k => funext fun a => Fin.ext (by match a with | ⟨0, _⟩ => rfl | ⟨1, _⟩ => rfl)
  have e4 : ∀ k : Fin 128, idx_main_v56 (ridx_main_v57 i k) = ix2 (n0 := 128) (n1 := 128) (i 1) k := fun k => funext fun a => Fin.ext (by match a with | ⟨0, _⟩ => rfl | ⟨1, _⟩ => rfl)
  have e5 : idx_main_v53 (idx_main_v54 i) = ix1 (n := 128) (i 1) := funext fun a => Fin.ext (by match a with | ⟨0, _⟩ => rfl)
  rw [val_main_v59_apply, val_main_v58_apply, val_main_v55_apply, val_main_v52_apply, val_main_v57_apply, val_main_v54_apply, val_main_v53_apply, val_main_call1_v0_apply, val_main_call1_cst_apply]
  simp only [val_main_v51_apply, val_main_v56_apply, e1, e2, e3, e4, e5]
  show max ((∑ k : Fin 128, (val_main_v50 (F := Ideal) x0 x1 x2 x3 x4) (ix2 (n0 := 100000) (n1 := 128) (i 0) k) * x5 (ix2 (n0 := 128) (n1 := 128) (i 1) k) + x6 (ix1 (n := 128) (i 1)))
        + ∑ k : Fin 128, (val_main_v31 (F := Ideal) x0 x1 x2 x3 x4) (ix2 (n0 := 100000) (n1 := 128) (i 0) k) * x7 (ix2 (n0 := 128) (n1 := 128) (i 1) k)) (Ideal.ofBits .f32 0x00000000#32)
      = max ((∑ k : Fin 128, (val_main_v50 (F := Ideal) x0 x1 x2 x3 x4) (ix2 (n0 := 100000) (n1 := 128) (i 0) k) * x5 (ix2 (n0 := 128) (n1 := 128) (i 1) k)
        + ∑ k : Fin 128, (val_main_v31 (F := Ideal) x0 x1 x2 x3 x4) (ix2 (n0 := 100000) (n1 := 128) (i 0) k) * x7 (ix2 (n0 := 128) (n1 := 128) (i 1) k)) + x6 (ix1 (n := 128) (i 1))) 0
  rw [Ideal.ofBits_zero_f32, add_right_comm]

/-- The last stage is the output projection of the second layer's output. -/
theorem output (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S4x128, .f32⟩ : BufTy).Contents (Elt Ideal)) (x9 : (⟨S4, .f32⟩ : BufTy).Contents (Elt Ideal)) :
    val_main_v64 (F := Ideal) x0 x1 x2 x3 x4 x5 x6 x7 x8 x9
      = project (val_main_v59 (F := Ideal) x0 x1 x2 x3 x4 x5 x6 x7) x8 (fun q => x9 (ix1 q)) := by
  funext i
  have e1 : ∀ k : Fin 128, lidx_main_v61 i k = ix2 (n0 := 100000) (n1 := 128) (i 0) k := fun k => funext fun a => Fin.ext (by match a with | ⟨0, _⟩ => rfl | ⟨1, _⟩ => rfl)
  have e2 : ∀ k : Fin 128, idx_main_v60 (ridx_main_v61 i k) = ix2 (n0 := 4) (n1 := 128) (i 1) k := fun k => funext fun a => Fin.ext (by match a with | ⟨0, _⟩ => rfl | ⟨1, _⟩ => rfl)
  have e5 : idx_main_v62 (idx_main_v63 i) = ix1 (n := 4) (i 1) := funext fun a => Fin.ext (by match a with | ⟨0, _⟩ => rfl)
  rw [val_main_v64_apply, val_main_v61_apply, val_main_v63_apply, val_main_v62_apply]
  simp only [val_main_v60_apply, e1, e2, e5]
  rfl

end Cert.RefValue

end
-- ==== Proof.lean ====
/-
  A two-layer graph network with mean aggregation, tiled over its nodes, against its plain statement.

  Both programs take node features `x` (100000 × 128), an edge list (2 × 1600000), the weights and biases of
  two SAGE layers and of an output projection, and compute
      h1  = max( mean(x)·W1lᵀ + x·W1rᵀ + b1, 0 ),   h2 = max( mean(h1)·W2lᵀ + h1·W2rᵀ + b2, 0 ),   out = h2·Woutᵀ + bout,
  where `mean(f)` adds, into every node, the rows of `f` at the sources of its incoming edges and divides by the
  in-degree clamped below by one. The gather, the scatter-adds and the degree count are the same host operations
  in both programs; they are never opened. The programs differ in four ways, none of which changes a value on the
  extended reals:
    • the dense stages run as three tiled regions, 20 blocks of 5000 nodes each: every entry of a layer depends on
      one row of the node arrays, and 20 · 5000 = 100000, so the blocks cover the arrays;
    • the tiled bodies round to bf16 on the way into each matrix product and multiply into a zero accumulator: a
      change of format is the identity and the accumulated product is the plain sum;
    • the mean is taken as a PRODUCT with `1 / max(deg, 1)` instead of a QUOTIENT by `max(deg, 1)`: the quotient is
      the product with the inverse whenever the divisor is not zero, and a count clamped below by one never is;
    • the bias is added after both products instead of between them: addition is commutative and associative.
  None of these uses that the inputs are finite; the precondition is carried but never opened.

  The three frames are the generated ones (the reference's is its generated run with the result dropped); the
  idealization rewrote no operation, so `preserves` is `True`.
-/
import proofs.«104540_j32066225832031_1_alg».proof.Defs
import proofs.«104540_j32066225832031_1_alg».proof.Proof.Gen.Kernel
import proofs.«104540_j32066225832031_1_alg».proof.Proof.Gen.Kernel.Skeleton
import proofs.«104540_j32066225832031_1_alg».proof.Proof.Gen.Kernel.Launch
import proofs.«104540_j32066225832031_1_alg».proof.Proof.Gen.Kernel.Points
import proofs.«104540_j32066225832031_1_alg».proof.Proof.Gen.Kernel.Frame
import proofs.«104540_j32066225832031_1_alg».proof.Proof.Gen.KernelIdeal
import proofs.«104540_j32066225832031_1_alg».proof.Proof.Gen.KernelIdeal.Skeleton
import proofs.«104540_j32066225832031_1_alg».proof.Proof.Gen.KernelIdeal.Launch
import proofs.«104540_j32066225832031_1_alg».proof.Proof.Gen.KernelIdeal.Points
import proofs.«104540_j32066225832031_1_alg».proof.Proof.Gen.KernelIdeal.Frame
import proofs.«104540_j32066225832031_1_alg».proof.Proof.Gen.ReferenceIdeal
import proofs.«104540_j32066225832031_1_alg».proof.Proof.Gen.ReferenceIdeal.Run
import proofs.«104540_j32066225832031_1_alg».proof.Proof.Gen.ReferenceIdeal.Read
import proofs.«104540_j32066225832031_1_alg».proof.Proof.Gen.Pre_finite_inputs
import proofs.«104540_j32066225832031_1_alg».proof.Proof.KernelRun
import proofs.«104540_j32066225832031_1_alg».proof.Proof.KernelNet
import proofs.«104540_j32066225832031_1_alg».proof.Proof.RefValue
import proofs.«104540_j32066225832031_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no tiled region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization is the program's own text read on the extended reals: nothing was rewritten. -/
theorem preserves : Cert.preserves_Kernel_KernelIdeal := trivial

/-- From memories agreeing on the arguments both programs end with one result array: the tiled program's, read
    through its segments, is the projection of the second layer over the first with product-form means; the
    reference's stages are the same layers with quotient-form means; the two means are one function. -/
theorem algebraic : Cert.algebraic_KernelIdeal_ReferenceIdeal := by
  intro m ρ m' ρ' _ hagree
  refine ⟨fun c => Cert.KernelIdeal.Gen.W6 m ρ c (Proc.devRef .tc Cert.KernelIdeal.main_v43), Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v64_eq, h0, h1, h2, h3, h4, h5, h6, h7, h8, h9, Cert.RefValue.output, Cert.RefValue.second_layer,
    Cert.RefValue.second_mean, Cert.RefValue.first_layer]
  refine Eq.trans ?_ (Cert.KernelIdeal.Net.result m ρ c).symm
  simp only [Cert.Chain.meanByReciprocal_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
